-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x256 : Shape := ⟨3, ![2, 50000, 256]⟩
abbrev S3x131072 : Shape := ⟨2, ![3, 131072]⟩
abbrev S3x131072x128 : Shape := ⟨3, ![3, 131072, 128]⟩
abbrev S256x256 : Shape := ⟨2, ![256, 256]⟩
abbrev S3x128x256 : Shape := ⟨3, ![3, 128, 256]⟩
abbrev S3x256 : Shape := ⟨2, ![3, 256]⟩
abbrev S_ : Shape := ⟨0, ![]⟩

class Facts : Prop where
  bcast_S_S2x50000x256 : S_.BroadcastsInDim S2x50000x256 (![] : Fin 0 → Fin S2x50000x256.rank)
  reducesTo_S2x50000x256_S_d0_1_2 : S2x50000x256.ReducesTo [0, 1, 2] S_
  h_S_ : 0 < S_.numel
  bcast_S_S3x131072x128 : S_.BroadcastsInDim S3x131072x128 (![] : Fin 0 → Fin S3x131072x128.rank)
  reducesTo_S3x131072x128_S_d0_1_2 : S3x131072x128.ReducesTo [0, 1, 2] S_
  bcast_S_S256x256 : S_.BroadcastsInDim S256x256 (![] : Fin 0 → Fin S256x256.rank)
  reducesTo_S256x256_S_d0_1 : S256x256.ReducesTo [0, 1] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg5 : FVec F S3x128x256 .f32) (main_arg6 : FVec F S3x256 .f32) (main_v13 : IVec S_ 1) (main_v16 : IVec S3x128x256 1) : IVec S_ 1 :=
  let main_c_5 : IVec S_ 1 := constantI S_ 1 1#1
  let main_v17 : IVec S_ 1 := (fun x v => Host.reduce IntOp.andi x v reducesTo_S3x128x256_S_d0_1_2 h_S_) main_v16 main_c_5
  let main_v18 : IVec S_ 1 := andi main_v13 main_v17
  let main_v19 : FVec F S3x128x256 .f32 := Host.absf main_arg5
  let main_cst_6 : FVec F S_ .f32 := constant S_ .f32 0x7F800000#32
  let main_v20 : FVec F S3x128x256 .f32 := broadcastInDim S3x128x256 ![] bcast_S_S3x128x256 main_cst_6
  let main_v21 : IVec S3x128x256 1 := cmpf .olt main_v19 main_v20
  let main_c_7 : IVec S_ 1 := constantI S_ 1 1#1
  let main_v22 : IVec S_ 1 := (fun x v => Host.reduce IntOp.andi x v reducesTo_S3x128x256_S_d0_1_2 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  main_v28

def fn {F : FTy → Type} [FloatOps F] (main_arg0 : FVec F S2x50000x256 .f32) (main_arg1 : IVec S3x131072 32) (main_arg2 : FVec F S3x131072x128 .f32) (main_arg3 : FVec F S256x256 .f32) (main_arg4 : FVec F S3x128x256 .f32) (main_arg5 : FVec F S3x128x256 .f32) (main_arg6 : FVec F S3x256 .f32) : IVec S_ 1 :=
  let main_v0 : FVec F S2x50000x256 .f32 := Host.absf main_arg0
  let main_cst : FVec F S_ .f32 := constant S_ .f32 0x7F800000#32
  let main_v1 : FVec F S2x50000x256 .f32 := broadcastInDim S2x50000x256 ![] bcast_S_S2x50000x256 main_cst
  let main_v2 : IVec S2x50000x256 1 := cmpf .olt main_v0 main_v1
  let main_c : IVec S_ 1 := constantI S_ 1 1#1
  let main_v3 : IVec S_ 1 := (fun x v => Host.reduce IntOp.andi x v reducesTo_S2x50000x256_S_d0_1_2 h_S_) main_v2 main_c
  let main_v4 : FVec F S3x131072x128 .f32 := Host.absf main_arg2
  let main_cst_0 : FVec F S_ .f32 := constant S_ .f32 0x7F800000#32
  let main_v5 : FVec F S3x131072x128 .f32 := broadcastInDim S3x131072x128 ![] bcast_S_S3x131072x128 main_cst_0
  let main_v6 : IVec S3x131072x128 1 := cmpf .olt main_v4 main_v5
  let main_c_1 : IVec S_ 1 := constantI S_ 1 1#1
  let main_v7 : IVec S_ 1 := (fun x v => Host.reduce IntOp.andi x v reducesTo_S3x131072x128_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S3x128x256 .f32 := Host.absf main_arg4
  let main_cst_4 : FVec F S_ .f32 := constant S_ .f32 0x7F800000#32
  let main_v15 : FVec F S3x128x256 .f32 := broadcastInDim S3x128x256 ![] bcast_S_S3x128x256 main_cst_4
  let main_v16 : IVec S3x128x256 1 := cmpf .olt main_v14 main_v15
  fn_part1 (F := F) main_arg5 main_arg6 main_v13 main_v16
-- ==== Kernel.lean ====
abbrev S2x50000x256 : Shape := ⟨3, ![2, 50000, 256]⟩
abbrev S3x131072 : Shape := ⟨2, ![3, 131072]⟩
abbrev S3x131072x128 : Shape := ⟨3, ![3, 131072, 128]⟩
abbrev S256x256 : Shape := ⟨2, ![256, 256]⟩
abbrev S3x128x256 : Shape := ⟨3, ![3, 128, 256]⟩
abbrev S3x256 : Shape := ⟨2, ![3, 256]⟩
abbrev S100000x256 : Shape := ⟨2, ![100000, 256]⟩
abbrev S5000x256 : Shape := ⟨2, ![5000, 256]⟩
abbrev S_ : Shape := ⟨0, ![]⟩
abbrev S3x131072x1 : Shape := ⟨3, ![3, 131072, 1]⟩
abbrev S3x131072x256 : Shape := ⟨3, ![3, 131072, 256]⟩
abbrev S3x128x512 : Shape := ⟨3, ![3, 128, 512]⟩
abbrev S3x1x256 : Shape := ⟨3, ![3, 1, 256]⟩
abbrev S1x2048x128 : Shape := ⟨3, ![1, 2048, 128]⟩
abbrev S1x2048x256 : Shape := ⟨3, ![1, 2048, 256]⟩
abbrev S1x128x512 : Shape := ⟨3, ![1, 128, 512]⟩
abbrev S1x1x256 : Shape := ⟨3, ![1, 1, 256]⟩
abbrev S2048x128 : Shape := ⟨2, ![2048, 128]⟩
abbrev S128x512 : Shape := ⟨2, ![128, 512]⟩
abbrev S2048x512 : Shape := ⟨2, ![2048, 512]⟩
abbrev S2048x256 : Shape := ⟨2, ![2048, 256]⟩
abbrev S1x256 : Shape := ⟨2, ![1, 256]⟩
abbrev S393216 : Shape := ⟨1, ![393216]⟩
abbrev S393216x256 : Shape := ⟨2, ![393216, 256]⟩
abbrev S393216x1 : Shape := ⟨2, ![393216, 1]⟩

abbrev nBuf : Space → Nat
  | .hbm => 35
  | .vmem => 15
  | .smem => 0
  | _ => 0

abbrev bufTy : (tb : Table) → Fin (tcTables nBuf tb) → BufTy
  | .hbm, ⟨0, _⟩ => ⟨S2x50000x256, .f32⟩
  | .hbm, ⟨1, _⟩ => ⟨S3x131072, .i32⟩
  | .hbm, ⟨2, _⟩ => ⟨S3x131072x128, .f32⟩
  | .hbm, ⟨3, _⟩ => ⟨S256x256, .f32⟩
  | .hbm, ⟨4, _⟩ => ⟨S3x128x256, .f32⟩
  | .hbm, ⟨5, _⟩ => ⟨S3x128x256, .f32⟩
  | .hbm, ⟨6, _⟩ => ⟨S3x256, .f32⟩
  | .hbm, ⟨7, _⟩ => ⟨S100000x256, .f32⟩
  | .hbm, ⟨8, _⟩ => ⟨S100000x256, .f32⟩
  | .hbm, ⟨9, _⟩ => ⟨S_, .i32⟩
  | .hbm, ⟨10, _⟩ => ⟨S3x131072, .i32⟩
  | .hbm, ⟨11, _⟩ => ⟨S3x131072, .i1⟩
  | .hbm, ⟨12, _⟩ => ⟨S_, .i32⟩
  | .hbm, ⟨13, _⟩ => ⟨S3x131072, .i32⟩
  | .hbm, ⟨14, _⟩ => ⟨S3x131072, .i32⟩
  | .hbm, ⟨15, _⟩ => ⟨S3x131072, .i32⟩
  | .hbm, ⟨16, _⟩ => ⟨S3x131072x1, .i32⟩
  | .hbm, ⟨17, _⟩ => ⟨S3x131072x256, .f32⟩
  | .hbm, ⟨18, _⟩ => ⟨S3x128x512, .f32⟩
  | .hbm, ⟨19, _⟩ => ⟨S3x1x256, .f32⟩
  | .hbm, ⟨20, _⟩ => ⟨S3x131072x256, .f32⟩
  | .hbm, ⟨21, _⟩ => ⟨S_, .f32⟩
  | .hbm, ⟨22, _⟩ => ⟨S100000x256, .f32⟩
  | .hbm, ⟨23, _⟩ => ⟨S393216, .i32⟩
  | .hbm, ⟨24, _⟩ => ⟨S393216x256, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S100000x256, .f32⟩
  | .hbm, ⟨34, _⟩ => ⟨S2x50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x256, .f32⟩
  | .local _ .vmem, ⟨8, _⟩ => ⟨S1x2048x256, .f32⟩
  | .local _ .vmem, ⟨9, _⟩ => ⟨S1x128x512, .f32⟩
  | .local _ .vmem, ⟨10, _⟩ => ⟨S1x128x512, .f32⟩
  | .local _ .vmem, ⟨11, _⟩ => ⟨S1x1x256, .f32⟩
  | .local _ .vmem, ⟨12, _⟩ => ⟨S1x1x256, .f32⟩
  | .local _ .vmem, ⟨13, _⟩ => ⟨S1x2048x256, .f32⟩
  | .local _ .vmem, ⟨14, _⟩ => ⟨S1x2048x256, .f32⟩
  | _, _ => ⟨S2x50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![3, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x50000x256_S100000x256 : S2x50000x256.ShapeCasts S100000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S3x131072 : S_.BroadcastsInDim S3x131072 (![] : Fin 0 → Fin S3x131072.rank)
  bcast_S3x131072_S3x131072x1_0_1 : S3x131072.BroadcastsInDim S3x131072x1 (![0, 1] : Fin 2 → Fin S3x131072x1.rank)
  concatenates_S3x128x256_S3x128x256_S3x128x512_d2 : Shape.Concatenates [S3x128x256, S3x128x256] S3x128x512 2
  bcast_S3x256_S3x1x256_0_2 : S3x256.BroadcastsInDim S3x1x256 (![0, 2] : Fin 2 → Fin S3x1x256.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  slices_S2048x512_o0_0_S2048x256 : S2048x512.Slices ![0, 0] S2048x256
  slices_S2048x512_o0_256_S2048x256 : S2048x512.Slices ![0, 256] S2048x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  bcast_S_S100000x256 : S_.BroadcastsInDim S100000x256 (![] : Fin 0 → Fin S100000x256.rank)
  shapeCasts_S3x131072_S393216 : S3x131072.ShapeCasts S393216
  shapeCasts_S3x131072x256_S393216x256 : S3x131072x256.ShapeCasts S393216x256
  bcast_S_S393216 : S_.BroadcastsInDim S393216 (![] : Fin 0 → Fin S393216.rank)
  bcast_S393216_S393216x1_0 : S393216.BroadcastsInDim S393216x1 (![0] : Fin 1 → Fin S393216x1.rank)
  shapeCasts_S100000x256_S2x50000x256 : S100000x256.ShapeCasts S2x50000x256
  dot_S5000x256_S256x256_S5000x256_1_0_0_1_n_n_wf : DotDims.WF S5000x256 S256x256 S5000x256 [1] [0] [0] [1] [] []
  gather_S100000x256_S3x131072x1_S3x131072x256_2_0_n_n_0_2_1256_wf : GatherDims.WF S100000x256 S3x131072x1 S3x131072x256 [2] [0] [] [0] [] 2 ![1, 256]
  dot_S2048x128_S128x512_S2048x512_1_0_0_1_n_n_wf : DotDims.WF S2048x128 S128x512 S2048x512 [1] [0] [0] [1] [] []
  scatter_S100000x256_S393216x1_S393216x256_1_0_0_1_wf : ScatterDims.WF S100000x256 S393216x1 S393216x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S3x131072x128.size a
  hwx1_0 : ∀ i : grid1.Coords, EltTy.bits .f32 = 32 ∨ (Rect.block (s := S3x131072x128) S1x2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S3x131072x256.size a
  hwx1_1 : ∀ i : grid1.Coords, EltTy.bits .f32 = 32 ∨ (Rect.block (s := S3x131072x256) S1x2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S3x128x512.size a
  hwx1_2 : ∀ i : grid1.Coords, EltTy.bits .f32 = 32 ∨ (Rect.block (s := S3x128x512) S1x128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S3x1x256.size a
  hwx1_3 : ∀ i : grid1.Coords, EltTy.bits .f32 = 32 ∨ (Rect.block (s := S3x1x256) S1x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x256.size a ≤ S3x131072x256.size a
  hwx1_4 : ∀ i : grid1.Coords, EltTy.bits .f32 = 32 ∨ (Rect.block (s := S3x131072x256) S1x2048x256.size (cc1_transform_4 i) (hinb1_4 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S3x131072x1_S3x131072x256_2_0_n_n_0_2_1256 : GatherDims S100000x256 S3x131072x1 S3x131072x256 where
  offsetDims := [2]
  collapsedSliceDims := [0]
  operandBatchingDims := []
  startIndicesBatchingDims := []
  startIndexMap := [0]
  indexVectorDim := 2
  sliceSizes := ![1, 256]
  wf := gather_S100000x256_S3x131072x1_S3x131072x256_2_0_n_n_0_2_1256_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def scatter_S100000x256_S393216x1_S393216x256_1_0_0_1 : ScatterDims S100000x256 S393216x1 S393216x256 where
  updateWindowDims := [1]
  insertedWindowDims := [0]
  scatterDimsToOperandDims := [0]
  indexVectorDim := 1
  wf := scatter_S100000x256_S393216x1_S393216x256_1_0_0_1_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x50000x256 : Shape := ⟨3, ![2, 50000, 256]⟩
abbrev S3x131072 : Shape := ⟨2, ![3, 131072]⟩
abbrev S3x131072x128 : Shape := ⟨3, ![3, 131072, 128]⟩
abbrev S256x256 : Shape := ⟨2, ![256, 256]⟩
abbrev S3x128x256 : Shape := ⟨3, ![3, 128, 256]⟩
abbrev S3x256 : Shape := ⟨2, ![3, 256]⟩
abbrev S100000x256 : Shape := ⟨2, ![100000, 256]⟩
abbrev S3x131072x256 : Shape := ⟨3, ![3, 131072, 256]⟩
abbrev S3x1x256 : Shape := ⟨3, ![3, 1, 256]⟩
abbrev S_ : Shape := ⟨0, ![]⟩
abbrev S3x131072x1 : Shape := ⟨3, ![3, 131072, 1]⟩
abbrev S393216 : Shape := ⟨1, ![393216]⟩
abbrev S393216x256 : Shape := ⟨2, ![393216, 256]⟩
abbrev S393216x1 : Shape := ⟨2, ![393216, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x50000x256, .f32⟩
  | .hbm, ⟨1, _⟩ => ⟨S3x131072, .i32⟩
  | .hbm, ⟨2, _⟩ => ⟨S3x131072x128, .f32⟩
  | .hbm, ⟨3, _⟩ => ⟨S256x256, .f32⟩
  | .hbm, ⟨4, _⟩ => ⟨S3x128x256, .f32⟩
  | .hbm, ⟨5, _⟩ => ⟨S3x128x256, .f32⟩
  | .hbm, ⟨6, _⟩ => ⟨S3x256, .f32⟩
  | .hbm, ⟨7, _⟩ => ⟨S100000x256, .f32⟩
  | .hbm, ⟨8, _⟩ => ⟨S100000x256, .f32⟩
  | .hbm, ⟨9, _⟩ => ⟨S3x131072x256, .f32⟩
  | .hbm, ⟨10, _⟩ => ⟨S3x131072x256, .f32⟩
  | .hbm, ⟨11, _⟩ => ⟨S3x1x256, .f32⟩
  | .hbm, ⟨12, _⟩ => ⟨S3x131072x256, .f32⟩
  | .hbm, ⟨13, _⟩ => ⟨S3x131072x256, .f32⟩
  | .hbm, ⟨14, _⟩ => ⟨S_, .i32⟩
  | .hbm, ⟨15, _⟩ => ⟨S3x131072, .i32⟩
  | .hbm, ⟨16, _⟩ => ⟨S3x131072, .i1⟩
  | .hbm, ⟨17, _⟩ => ⟨S_, .i32⟩
  | .hbm, ⟨18, _⟩ => ⟨S3x131072, .i32⟩
  | .hbm, ⟨19, _⟩ => ⟨S3x131072, .i32⟩
  | .hbm, ⟨20, _⟩ => ⟨S3x131072, .i32⟩
  | .hbm, ⟨21, _⟩ => ⟨S3x131072x1, .i32⟩
  | .hbm, ⟨22, _⟩ => ⟨S3x131072x256, .f32⟩
  | .hbm, ⟨23, _⟩ => ⟨S3x131072x256, .f32⟩
  | .hbm, ⟨24, _⟩ => ⟨S3x131072x256, .f32⟩
  | .hbm, ⟨25, _⟩ => ⟨S3x131072x256, .f32⟩
  | .hbm, ⟨26, _⟩ => ⟨S_, .f32⟩
  | .hbm, ⟨27, _⟩ => ⟨S3x131072x256, .f32⟩
  | .hbm, ⟨28, _⟩ => ⟨S3x131072x256, .f32⟩
  | .hbm, ⟨29, _⟩ => ⟨S_, .f32⟩
  | .hbm, ⟨30, _⟩ => ⟨S3x131072x256, .f32⟩
  | .hbm, ⟨31, _⟩ => ⟨S3x131072x256, .f32⟩
  | .hbm, ⟨32, _⟩ => ⟨S3x131072x256, .f32⟩
  | .hbm, ⟨33, _⟩ => ⟨S_, .f32⟩
  | .hbm, ⟨34, _⟩ => ⟨S100000x256, .f32⟩
  | .hbm, ⟨35, _⟩ => ⟨S393216, .i32⟩
  | .hbm, ⟨36, _⟩ => ⟨S393216x256, .f32⟩
  | .hbm, ⟨37, _⟩ => ⟨S_, .i32⟩
  | .hbm, ⟨38, _⟩ => ⟨S393216, .i32⟩
  | .hbm, ⟨39, _⟩ => ⟨S393216, .i1⟩
  | .hbm, ⟨40, _⟩ => ⟨S_, .i32⟩
  | .hbm, ⟨41, _⟩ => ⟨S393216, .i32⟩
  | .hbm, ⟨42, _⟩ => ⟨S393216, .i32⟩
  | .hbm, ⟨43, _⟩ => ⟨S393216, .i32⟩
  | .hbm, ⟨44, _⟩ => ⟨S393216x1, .i32⟩
  | .hbm, ⟨45, _⟩ => ⟨S100000x256, .f32⟩
  | .hbm, ⟨46, _⟩ => ⟨S2x50000x256, .f32⟩
  | _, _ => ⟨S2x50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  shapeCasts_S2x50000x256_S100000x256 : S2x50000x256.ShapeCasts S100000x256
  bcast_S3x256_S3x1x256_0_2 : S3x256.BroadcastsInDim S3x1x256 (![0, 2] : Fin 2 → Fin S3x1x256.rank)
  bcast_S3x1x256_S3x131072x256_0_1_2 : S3x1x256.BroadcastsInDim S3x131072x256 (![0, 1, 2] : Fin 3 → Fin S3x131072x256.rank)
  bcast_S_S3x131072 : S_.BroadcastsInDim S3x131072 (![] : Fin 0 → Fin S3x131072.rank)
  bcast_S3x131072_S3x131072x1_0_1 : S3x131072.BroadcastsInDim S3x131072x1 (![0, 1] : Fin 2 → Fin S3x131072x1.rank)
  bcast_S_S3x131072x256 : S_.BroadcastsInDim S3x131072x256 (![] : Fin 0 → Fin S3x131072x256.rank)
  bcast_S_S100000x256 : S_.BroadcastsInDim S100000x256 (![] : Fin 0 → Fin S100000x256.rank)
  shapeCasts_S3x131072_S393216 : S3x131072.ShapeCasts S393216
  shapeCasts_S3x131072x256_S393216x256 : S3x131072x256.ShapeCasts S393216x256
  bcast_S_S393216 : S_.BroadcastsInDim S393216 (![] : Fin 0 → Fin S393216.rank)
  bcast_S393216_S393216x1_0 : S393216.BroadcastsInDim S393216x1 (![0] : Fin 1 → Fin S393216x1.rank)
  shapeCasts_S100000x256_S2x50000x256 : S100000x256.ShapeCasts S2x50000x256
  dot_S100000x256_S256x256_S100000x256_1_0_0_1_n_n_wf : DotDims.WF S100000x256 S256x256 S100000x256 [1] [0] [0] [1] [] []
  dot_S3x131072x128_S3x128x256_S3x131072x256_2_1_1_2_0_0_wf : DotDims.WF S3x131072x128 S3x128x256 S3x131072x256 [2] [1] [1] [2] [0] [0]
  gather_S100000x256_S3x131072x1_S3x131072x256_2_0_n_n_0_2_1256_wf : GatherDims.WF S100000x256 S3x131072x1 S3x131072x256 [2] [0] [] [0] [] 2 ![1, 256]
  scatter_S100000x256_S393216x1_S393216x256_1_0_0_1_wf : ScatterDims.WF S100000x256 S393216x1 S393216x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S3x131072x128_S3x128x256_S3x131072x256_2_1_1_2_0_0 : DotDims S3x131072x128 S3x128x256 S3x131072x256 where
  lhsContracting := [2]
  rhsContracting := [1]
  lhsNonContracting := [1]
  rhsNonContracting := [2]
  lhsBatch := [0]
  rhsBatch := [0]
  wf := dot_S3x131072x128_S3x128x256_S3x131072x256_2_1_1_2_0_0_wf
def gather_S100000x256_S3x131072x1_S3x131072x256_2_0_n_n_0_2_1256 : GatherDims S100000x256 S3x131072x1 S3x131072x256 where
  offsetDims := [2]
  collapsedSliceDims := [0]
  operandBatchingDims := []
  startIndicesBatchingDims := []
  startIndexMap := [0]
  indexVectorDim := 2
  sliceSizes := ![1, 256]
  wf := gather_S100000x256_S3x131072x1_S3x131072x256_2_0_n_n_0_2_1256_wf
def scatter_S100000x256_S393216x1_S393216x256_1_0_0_1 : ScatterDims S100000x256 S393216x1 S393216x256 where
  updateWindowDims := [1]
  insertedWindowDims := [0]
  scatterDimsToOperandDims := [0]
  indexVectorDim := 1
  wf := scatter_S100000x256_S393216x1_S393216x256_1_0_0_1_wf

class Facts : Prop extends Facts₀ where

variable [Facts]
-- ==== Proof.Region0.lean ====
import proofs.«119459_j52905407152679_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand0

open Cert.KernelIdeal Cert.KernelIdeal.Gen Idealize.ShloMosaic Idealize.ShloMosaic.TcCoe Idealize.SL.Sem
open Idealize.ShloMosaic.Pipeline (Dat)

/-- Row `i 0` of the left array at contracted index `k`. -/
abbrev lrow (i : S100000x256.Idx) (k : Fin 256) : S100000x256.Idx := fun a => match a with
  | ⟨0, _⟩ => ⟨(i 0).val, (i 0).isLt⟩
  | ⟨1, _⟩ => ⟨k.val, k.isLt⟩
/-- Column `i 1` of the right matrix at contracted index `k`. -/
abbrev rcol (i : S100000x256.Idx) (k : Fin 256) : S256x256.Idx := fun a => match a with
  | ⟨0, _⟩ => ⟨k.val, k.isLt⟩
  | ⟨1, _⟩ => ⟨(i 1).val, (i 1).isLt⟩
/-- the matrix product, entry by entry -/
def prod0 (a : S100000x256.Idx → EReal) (w : S256x256.Idx → EReal) : S100000x256.Idx → EReal :=
  fun i => ∑ k : Fin 256, a (lrow i k) * w (rcol i k)

/-- The left operand's row coordinate at an output entry is the entry's row. -/
theorem lhs_row (j : S5000x256.Idx) (q : dot_S5000x256_S256x256_S5000x256_1_0_0_1_n_n.contr.Idx) : (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The left operand's column coordinate is the contracted index. -/
theorem lhs_col (j : S5000x256.Idx) (q : dot_S5000x256_S256x256_S5000x256_1_0_0_1_n_n.contr.Idx) : (dot_S5000x256_S256x256_S5000x256_1_0_0_1_n_n.lhsIdx j q 1).val = (q ⟨0, by decide⟩).val :=
  dot_S5000x256_S256x256_S5000x256_1_0_0_1_n_n.lhsIdx_val_of_single rfl j q

/-- The right operand's row coordinate is the contracted index. -/
theorem rhs_row (j : S5000x256.Idx) (q : dot_S5000x256_S256x256_S5000x256_1_0_0_1_n_n.contr.Idx) : (dot_S5000x256_S256x256_S5000x256_1_0_0_1_n_n.rhsIdx j q 0).val = (q ⟨0, by decide⟩).val :=
  dot_S5000x256_S256x256_S5000x256_1_0_0_1_n_n.rhsIdx_val_of_single rfl j q

/-- The right operand's column coordinate at an output entry is the entry's column. -/
theorem rhs_col (j : S5000x256.Idx) (q : dot_S5000x256_S256x256_S5000x256_1_0_0_1_n_n.contr.Idx) : (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- An entry of the block product is the sum, over the contracted axis, of the left block's row
    times the right block's column. -/
theorem pay_apply (x0 : Vec Ideal S5000x256 .f32) (x1 : Vec Ideal S256x256 .f32) (p : Fin 5000) (q : Fin 256) :
    k0_pay1 (F := Ideal) x0 x1 (ValueIdx.ix2 p q)
      = ∑ k : Fin 256, x0 (ValueIdx.ix2 p k) * x1 (ValueIdx.ix2 k q) := by
  unfold k0_pay1
  rw [shapeCast_self]
  refine (Ideal.matmul_constant_zero_apply dot_S5000x256_S256x256_S5000x256_1_0_0_1_n_n none _ _ _).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ValueIdx.ix2 p q) ((ValueIdx.contrEquiv1 dot_S5000x256_S256x256_S5000x256_1_0_0_1_n_n 256 rfl rfl).symm k) = ValueIdx.ix2 p k :=
    funext fun a => Fin.ext (by
      match a with
      | ⟨0, _⟩ => exact lhs_row _ _
      | ⟨1, _⟩ => exact (lhs_col _ _).trans hk)
  have er : dot_S5000x256_S256x256_S5000x256_1_0_0_1_n_n.rhsIdx (ValueIdx.ix2 p q) ((ValueIdx.contrEquiv1 dot_S5000x256_S256x256_S5000x256_1_0_0_1_n_n 256 rfl rfl).symm k) = ValueIdx.ix2 k q :=
    funext fun a => Fin.ext (by
      match a with
      | ⟨0, _⟩ => exact (rhs_row _ _).trans hk
      | ⟨1, _⟩ => exact rhs_col _ _)
  rw [ValueIdx.truncf_apply, ValueIdx.truncf_apply, el, er]

variable (V : (c : Dev nD) → (b : Ref sig .tc) → Buf (Elt Ideal) ((c : Thread nD τ).loc b))

/-- The offset (0, 0) is the constant-zero offset. -/
theorem hz : (![0, 0] : Fin 2 → Nat) = fun _ => 0 := funext fun a => by fin_cases a <;> rfl

/-- The same at any index of the block: an index is the pair of its two coordinates. -/
theorem pay_idx (x0 : Vec Ideal S5000x256 .f32) (x1 : Vec Ideal S256x256 .f32) (j : S5000x256.Idx) :
    k0_pay1 (F := Ideal) x0 x1 j = ∑ k : Fin 256, x0 (ValueIdx.ix2 (j 0) k) * x1 (ValueIdx.ix2 k (j 1)) :=
  (congrArg (k0_pay1 (F := Ideal) x0 x1) (ValueIdx.eq_ix2 j)).trans (pay_apply x0 x1 (j 0) (j 1))

/-- The index maps over the grid: the left operand's block moves down the rows with the result's
    block and starts at column 0; the right operand's block is the whole matrix at every point; the
    result's block starts at column 0 and its row-block number is below 20. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 20 :=
  (by decide +kernel : ∀ t : Fin grid0.N, _)

/-- Every one of the 20 row-blocks of the result is some point's. -/
theorem idx_onto : ∀ q : Fin 20, ∃ t : Fin cfg0.N, win0_2.index t (0 : Fin 2) = q.val :=
  (by decide +kernel : ∀ q : Fin 20, ∃ t : Fin grid0.N, win0_2.index t (0 : Fin 2) = q.val)

/-- The left operand's block at a point holds rows (block number) * 5000 + y0 of the left array:
    a block's coordinate in its array is the block number times the block's extent plus the
    coordinate inside the block. -/
theorem blk0_read (c : Dev nD) (t : Fin cfg0.N) (y : S5000x256.Idx) (i : S100000x256.Idx)
    (h0 : (i 0).val = win0_0.index t (0 : Fin 2) * 5000 + 1 * (y 0).val)
    (h1 : (i 1).val = win0_0.index t (1 : Fin 2) * 256 + 1 * (y 1).val) :
    iblk0 V c 0 t y = V c main_v0 i := by
  show V c main_v0 (((cfg0.win 0).blk t).view.emb y) = V c main_v0 i
  refine congrArg _ (funext fun a => Fin.ext ?_)
  match a with
  | ⟨0, _⟩ => exact h0.symm
  | ⟨1, _⟩ => exact h1.symm

/-- The right operand's block at a point, likewise read off the right array. -/
theorem blk1_read (c : Dev nD) (t : Fin cfg0.N) (y : S256x256.Idx) (i : S256x256.Idx)
    (h0 : (i 0).val = win0_1.index t (0 : Fin 2) * 256 + 1 * (y 0).val)
    (h1 : (i 1).val = win0_1.index t (1 : Fin 2) * 256 + 1 * (y 1).val) :
    iblk0 V c 1 t y = V c main_arg3 i := by
  show V c main_arg3 (((cfg0.win 1).blk t).view.emb y) = V c main_arg3 i
  refine congrArg _ (funext fun a => Fin.ext ?_)
  match a with
  | ⟨0, _⟩ => exact h0.symm
  | ⟨1, _⟩ => exact h1.symm

/-- What a point writes back is its block of the matrix product of the two arrays as the region
    finds them: the block holds 5000 consecutive rows of the left array, the whole right matrix is
    present, and an entry of the block product is the sum over the contracted axis. -/
theorem flushed_eq (c : Dev nD) (t : Fin cfg0.N) :
    (dat0 (F := Ideal) V c).flushed 2 t
      = ((cfg0.win 2).blk t).view.read (Elt Ideal) (prod0 (V c main_v0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e0, e1, e2, e3, e4, _⟩ := idx_facts t
  funext j
  show k0_pay1 (F := Ideal) (iblk0 V c 0 t) (iblk0 V c 1 t) j
      = prod0 (V c main_v0) (V c main_arg3) (((cfg0.win 2).blk t).view.emb j)
  refine (pay_idx _ _ j).trans ?_
  unfold prod0
  refine Finset.sum_congr rfl fun k _ => ?_
  have hl : iblk0 V c 0 t (ValueIdx.ix2 (j 0) k) = V c main_v0 (lrow (((cfg0.win 2).blk t).view.emb j) k) :=
    blk0_read V c t _ _
      (by show win0_2.index t (0 : Fin 2) * 5000 + 1 * (j 0).val = win0_0.index t (0 : Fin 2) * 5000 + 1 * (j 0).val
          rw [e0])
      (by show k.val = win0_0.index t (1 : Fin 2) * 256 + 1 * k.val
          rw [e1]; omega)
  have hr : iblk0 V c 1 t (ValueIdx.ix2 k (j 1)) = V c main_arg3 (rcol (((cfg0.win 2).blk t).view.emb j) k) :=
    blk1_read V c t _ _
      (by show k.val = win0_1.index t (0 : Fin 2) * 256 + 1 * k.val
          rw [e2]; omega)
      (by show win0_2.index t (1 : Fin 2) * 256 + 1 * (j 1).val = win0_1.index t (1 : Fin 2) * 256 + 1 * (j 1).val
          rw [e3, e4])
  rw [hl, hr]

/-- An index of the result array is in a point's block exactly when each coordinate is in the
    block's range on its axis. -/
theorem mem_blk (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v1).slice (win0_2.rect t)).set ↔ _
  rw [View.set_slice_whole, Rect.mem_set_unit]
  exact Iff.rfl

/-- The blocks tile the result: row r lies in row-block r / 5000, which is some point's, and every
    block spans all 256 columns. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto ⟨(i 0).val / 5000, by omega⟩
  have q0 : win0_2.index t (0 : Fin 2) = (i 0).val / 5000 := ht
  obtain ⟨_, _, _, _, e4, _⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the region the result array holds the matrix product of the left array and the right
    matrix as the region found them, entry by entry. -/
theorem region0_value (c : Dev nD) :
    (dat0 (F := Ideal) V c).arrAt 2 cfg0.N = prod0 (V c main_v0) (V c main_arg3) :=
  (dat0 V c).arrAt_eq_of_cover 2 _ (fun t _ => flushed_eq V c t) cover

end Cert.KernelIdeal.Hand0

end
-- ==== Proof.Region1.lean ====
/-
  The second kernel region, read as a value over the extended reals.

  Each of its 3 × 64 grid points loads a [2048,128] block of edge features, the matching [2048,256] block of gathered
  source gates, one edge type's [128,512] concatenated weights and its [1,256] bias row, forms the [2048,512] product,
  takes the first 256 columns as the gate projection and the last 256 as the value projection, and stores
  (value + bias) · logistic(gathered + gate). Written here: one entry of that block as a sum over the contracted
  axis (`pay1_apply`), the same entry in terms of the whole arrays when the blocks are rows `E·2048 …` of edge type `T`
  (`point_eq`, `blk0` … `blk3`), that a point writes back exactly its block of the whole message array (`flushed1_eq`),
  that the blocks tile that array (`cover1`), and so the array the region leaves (`region1_value`).
-/
import proofs.«119459_j52905407152679_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand1

open Cert.KernelIdeal Cert.KernelIdeal.Gen Idealize.ShloMosaic Idealize.ShloMosaic.TcCoe Idealize.SL.Sem
open Idealize.ShloMosaic.Pipeline (Dat)
open Idealize.ShloMosaic.ValueIdx

/-- The row coordinate of the left operand's index is the output's row. -/
theorem mm_lhs0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
/-- The column coordinate of the right operand's index is the output's column. -/
theorem mm_rhs1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- An entry of the [2048,128] × [128,512] product into a zero accumulator is the sum, over the contracted axis,
    of the products of the row's and the column's entries. -/
theorem mm_apply (a : FVec Ideal S2048x128 .bf16) (b : FVec Ideal S128x512 .bf16) (e : Fin 2048) (c : Fin 512) :
    matmul dot_S2048x128_S128x512_S2048x512_1_0_0_1_n_n none a b (constant (F := Ideal) S2048x512 .f32 0x00000000#32) (ix2 e c)
      = ∑ k : Fin 128, a (ix2 e k) * b (ix2 k c) := by
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 e c) ((ValueIdx.contrEquiv1 dot_S2048x128_S128x512_S2048x512_1_0_0_1_n_n 128 rfl rfl).symm k) = ix2 e k := funext fun ax => Fin.ext (by
    match ax with
    | ⟨0, _⟩ => exact mm_lhs0 _ _
    | ⟨1, _⟩ => exact (dot_S2048x128_S128x512_S2048x512_1_0_0_1_n_n.lhsIdx_val_of_single rfl _ _).trans hk)
  have er : dot_S2048x128_S128x512_S2048x512_1_0_0_1_n_n.rhsIdx (ix2 e c) ((ValueIdx.contrEquiv1 dot_S2048x128_S128x512_S2048x512_1_0_0_1_n_n 128 rfl rfl).symm k) = ix2 k c := funext fun ax => Fin.ext (by
    match ax with
    | ⟨0, _⟩ => exact (dot_S2048x128_S128x512_S2048x512_1_0_0_1_n_n.rhsIdx_val_of_single rfl _ _).trans hk
    | ⟨1, _⟩ => exact mm_rhs1 _ _)
  rw [el, er]

/-- The logistic function of a vector, entry by entry. -/
theorem logistic_apply {s : Shape} {φ : FTy} (a : FVec Ideal s φ) (i : s.Idx) : logistic a i = Ideal.logistic (a i) := rfl

/-- One entry of what a grid point stores: the value half of the combined product (its columns from 256 on) plus the
    bias row, times the logistic function of the gathered entry plus the gate half (its first 256 columns). -/
theorem pay1_apply (x0 : Vec Ideal S1x2048x128 .f32) (x2 : Vec Ideal S1x128x512 .f32) (x3 : Vec Ideal S1x1x256 .f32) (x1 : Vec Ideal S1x2048x256 .f32)
    (u : Fin 1) (e : Fin 2048) (q : Fin 256) :
    k1_pay1 x0 x2 x3 x1 (ix3 u e q)
      = ((∑ k : Fin 128, x0 (ix3 (0 : Fin 1) e k) * x2 (ix3 (0 : Fin 1) k (⟨256 + q.val, by omega⟩ : Fin 512))) + x3 (ix3 (0 : Fin 1) (0 : Fin 1) q))
        * Ideal.logistic (x1 (ix3 (0 : Fin 1) e q) + ∑ k : Fin 128, x0 (ix3 (0 : Fin 1) e k) * x2 (ix3 (0 : Fin 1) k (⟨0 + q.val, by omega⟩ : Fin 512))) := by
  unfold k1_pay1
  simp only [shapeCast_ab_1ab_apply, mulf_apply, addf_apply, logistic_apply, slice2_axis1_eq, broadcastTo_1b_ab_apply,
    shapeCast_1ab_ab_apply, mm_apply, truncf_apply]

/-- The entry of the edge messages at edge type `T`, edge `e`, unit `q`: the value projection plus its bias, gated by the
    logistic function of the gathered source entry plus the gate projection. The two projections are the column
    halves of one product with the concatenated weights: the gate half is columns `0 + q`, the value half columns `256 + q`. -/
def msgsAt (A : S3x131072x128.Idx → EReal) (G : S3x131072x256.Idx → EReal) (W : S3x128x512.Idx → EReal) (B : S3x1x256.Idx → EReal)
    (T : Fin 3) (e : Fin 131072) (q : Fin 256) : EReal :=
  ((∑ k : Fin 128, A (ix3 T e k) * W (ix3 T k (⟨256 + q.val, by omega⟩ : Fin 512))) + B (ix3 T (0 : Fin 1) q))
    * Ideal.logistic (G (ix3 T e q) + ∑ k : Fin 128, A (ix3 T e k) * W (ix3 T k (⟨0 + q.val, by omega⟩ : Fin 512)))

/-- The whole array of edge messages, as a function of its index. -/
def msgsOf (A : S3x131072x128.Idx → EReal) (G : S3x131072x256.Idx → EReal) (W : S3x128x512.Idx → EReal) (B : S3x1x256.Idx → EReal) :
    S3x131072x256.Idx → EReal :=
  fun i => msgsAt A G W B ⟨(i 0).val, (i 0).isLt⟩ ⟨(i 1).val, (i 1).isLt⟩ ⟨(i 2).val, (i 2).isLt⟩

/-- A grid point's stored block, entry by entry, when its four loaded blocks are the rows `E·2048 …` of edge type `T`
    of the edge features and of the gathered sources, and edge type `T`'s weights and bias. -/
theorem point_eq (A : S3x131072x128.Idx → EReal) (G : S3x131072x256.Idx → EReal) (W : S3x128x512.Idx → EReal) (B : S3x1x256.Idx → EReal)
    (x0 : Vec Ideal S1x2048x128 .f32) (x1 : Vec Ideal S1x2048x256 .f32) (x2 : Vec Ideal S1x128x512 .f32) (x3 : Vec Ideal S1x1x256 .f32)
    (T : Fin 3) (E : Fin 64)
    (h0 : ∀ (e : Fin 2048) (k : Fin 128), x0 (ix3 (0 : Fin 1) e k) = A (ix3 T (⟨E.val * 2048 + e.val, by omega⟩ : Fin 131072) k))
    (h1 : ∀ (e : Fin 2048) (q : Fin 256), x1 (ix3 (0 : Fin 1) e q) = G (ix3 T (⟨E.val * 2048 + e.val, by omega⟩ : Fin 131072) q))
    (h2 : ∀ (k : Fin 128) (cc : Fin 512), x2 (ix3 (0 : Fin 1) k cc) = W (ix3 T k cc))
    (h3 : ∀ (q : Fin 256), x3 (ix3 (0 : Fin 1) (0 : Fin 1) q) = B (ix3 T (0 : Fin 1) q))
    (u : Fin 1) (e : Fin 2048) (q : Fin 256) :
    k1_pay1 x0 x2 x3 x1 (ix3 u e q) = msgsAt A G W B T (⟨E.val * 2048 + e.val, by omega⟩ : Fin 131072) q := by
  rw [pay1_apply]
  simp only [h0, h1, h2, h3, msgsAt]

variable (V : (c : Dev nD) → (b : Ref sig .tc) → Buf (Elt Ideal) ((c : Thread nD τ).loc b))

theorem hz3 : (![0, 0, 0] : Fin 3 → Nat) = fun _ => 0 := funext fun a => by fin_cases a <;> rfl

/-- How the five windows move over the grid: the edge-feature, gathered-source and output blocks share their edge-type
    and row-block indices; the weight and bias blocks follow the edge type only. -/
theorem idx_facts1 : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = win1_4.index t (1 : Fin 3) ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) < 3 ∧ win1_4.index t (1 : Fin 3) < 64 ∧ win1_4.index t (2 : Fin 3) = 0 :=
  (by decide +kernel : ∀ t : Fin grid1.N, _)

/-- The edge-feature block of a grid point holds rows `E·2048 …` of edge type `T`. -/
theorem blk0 (c : Dev nD) (t : Fin cfg1.N) (T : Fin 3) (E : Fin 64)
    (hT : win1_0.index t (0 : Fin 3) = T.val) (hE : win1_0.index t (1 : Fin 3) = E.val) (hZ : win1_0.index t (2 : Fin 3) = 0)
    (e : Fin 2048) (k : Fin 128) :
    (iblk1 V c 0 t : Vec Ideal S1x2048x128 .f32) (ix3 (0 : Fin 1) e k)
      = (V c main_arg2 : S3x131072x128.Idx → EReal) (ix3 T (⟨E.val * 2048 + e.val, by omega⟩ : Fin 131072) k) := by
  unfold iblk1
  rw [View.read_apply]
  show (V c main_arg2 : S3x131072x128.Idx → EReal) _ = V c main_arg2 _
  refine congrArg (V c main_arg2 : S3x131072x128.Idx → EReal) ?_
  funext a; apply Fin.ext
  match a with
  | ⟨0, _⟩ => show win1_0.index t (0 : Fin 3) * 1 + 1 * 0 = T.val; omega
  | ⟨1, _⟩ => show win1_0.index t (1 : Fin 3) * 2048 + 1 * e.val = E.val * 2048 + e.val; omega
  | ⟨2, _⟩ => show win1_0.index t (2 : Fin 3) * 128 + 1 * k.val = k.val; omega

/-- The gathered-source block of a grid point holds rows `E·2048 …` of edge type `T`. -/
theorem blk1 (c : Dev nD) (t : Fin cfg1.N) (T : Fin 3) (E : Fin 64)
    (hT : win1_1.index t (0 : Fin 3) = T.val) (hE : win1_1.index t (1 : Fin 3) = E.val) (hZ : win1_1.index t (2 : Fin 3) = 0)
    (e : Fin 2048) (q : Fin 256) :
    (iblk1 V c 1 t : Vec Ideal S1x2048x256 .f32) (ix3 (0 : Fin 1) e q)
      = (V c main_v8 : S3x131072x256.Idx → EReal) (ix3 T (⟨E.val * 2048 + e.val, by omega⟩ : Fin 131072) q) := by
  unfold iblk1
  rw [View.read_apply]
  show (V c main_v8 : S3x131072x256.Idx → EReal) _ = V c main_v8 _
  refine congrArg (V c main_v8 : S3x131072x256.Idx → EReal) ?_
  funext a; apply Fin.ext
  match a with
  | ⟨0, _⟩ => show win1_1.index t (0 : Fin 3) * 1 + 1 * 0 = T.val; omega
  | ⟨1, _⟩ => show win1_1.index t (1 : Fin 3) * 2048 + 1 * e.val = E.val * 2048 + e.val; omega
  | ⟨2, _⟩ => show win1_1.index t (2 : Fin 3) * 256 + 1 * q.val = q.val; omega

/-- The weight block of a grid point is edge type `T`'s whole [128,512] matrix. -/
theorem blk2 (c : Dev nD) (t : Fin cfg1.N) (T : Fin 3)
    (hT : win1_2.index t (0 : Fin 3) = T.val) (hE : win1_2.index t (1 : Fin 3) = 0) (hZ : win1_2.index t (2 : Fin 3) = 0)
    (k : Fin 128) (cc : Fin 512) :
    (iblk1 V c 2 t : Vec Ideal S1x128x512 .f32) (ix3 (0 : Fin 1) k cc)
      = (V c main_v9 : S3x128x512.Idx → EReal) (ix3 T k cc) := by
  unfold iblk1
  rw [View.read_apply]
  show (V c main_v9 : S3x128x512.Idx → EReal) _ = V c main_v9 _
  refine congrArg (V c main_v9 : S3x128x512.Idx → EReal) ?_
  funext a; apply Fin.ext
  match a with
  | ⟨0, _⟩ => show win1_2.index t (0 : Fin 3) * 1 + 1 * 0 = T.val; omega
  | ⟨1, _⟩ => show win1_2.index t (1 : Fin 3) * 128 + 1 * k.val = k.val; omega
  | ⟨2, _⟩ => show win1_2.index t (2 : Fin 3) * 512 + 1 * cc.val = cc.val; omega

/-- The bias block of a grid point is edge type `T`'s one row. -/
theorem blk3 (c : Dev nD) (t : Fin cfg1.N) (T : Fin 3)
    (hT : win1_3.index t (0 : Fin 3) = T.val) (hE : win1_3.index t (1 : Fin 3) = 0) (hZ : win1_3.index t (2 : Fin 3) = 0)
    (q : Fin 256) :
    (iblk1 V c 3 t : Vec Ideal S1x1x256 .f32) (ix3 (0 : Fin 1) (0 : Fin 1) q)
      = (V c main_v10 : S3x1x256.Idx → EReal) (ix3 T (0 : Fin 1) q) := by
  unfold iblk1
  rw [View.read_apply]
  show (V c main_v10 : S3x1x256.Idx → EReal) _ = V c main_v10 _
  refine congrArg (V c main_v10 : S3x1x256.Idx → EReal) ?_
  funext a; apply Fin.ext
  match a with
  | ⟨0, _⟩ => show win1_3.index t (0 : Fin 3) * 1 + 1 * 0 = T.val; omega
  | ⟨1, _⟩ => show win1_3.index t (1 : Fin 3) * 1 + 1 * 0 = 0; omega
  | ⟨2, _⟩ => show win1_3.index t (2 : Fin 3) * 256 + 1 * q.val = q.val; omega

/-- What a grid point writes back is its block of the whole array of edge messages. -/
theorem flushed1_eq (c : Dev nD) (t : Fin cfg1.N) :
    (dat1 V c).flushed 4 t = ((cfg1.win 4).blk t).view.read (Elt Ideal) (msgsOf (V c main_arg2) (V c main_v8) (V c main_v9) (V c main_v10)) := by
  show (cfg1.win 4).cut (grid1.coords t) ((dat1 V c).after 4 t) = _
  rw [after1_4]
  unfold out1_4
  rw [View.canon_unit_zero hz3]
  simp only [View.ld_unit_zero (S := S1x2048x128) hz3, View.ld_unit_zero (S := S1x128x512) hz3, View.ld_unit_zero (S := S1x1x256) hz3, View.ld_unit_zero (S := S1x2048x256) hz3]
  obtain ⟨a0, a1, a2, b0, b1, b2, c0, c1, c2, d0, d1, d2, hT, hE, hZ⟩ := idx_facts1 t
  funext j
  show k1_pay1 (iblk1 V c 0 t) (iblk1 V c 2 t) (iblk1 V c 3 t) (iblk1 V c 1 t) j
    = msgsOf (V c main_arg2) (V c main_v8) (V c main_v9) (V c main_v10) (((cfg1.win 4).blk t).view.emb j)
  refine (congrArg (k1_pay1 (iblk1 V c 0 t) (iblk1 V c 2 t) (iblk1 V c 3 t) (iblk1 V c 1 t)) (eq_ix3 j)).trans ?_
  refine (point_eq (V c main_arg2) (V c main_v8) (V c main_v9) (V c main_v10) (iblk1 V c 0 t) (iblk1 V c 1 t) (iblk1 V c 2 t) (iblk1 V c 3 t)
    ⟨win1_4.index t (0 : Fin 3), hT⟩ ⟨win1_4.index t (1 : Fin 3), hE⟩
    (fun e k => blk0 V c t _ _ a0 a1 a2 e k) (fun e q => blk1 V c t _ _ b0 b1 b2 e q)
    (fun k cc => blk2 V c t _ c0 c1 c2 k cc) (fun q => blk3 V c t _ d0 d1 d2 q) (j 0) (j 1) (j 2)).trans ?_
  unfold msgsOf
  have hj1 : (j 1).val < 2048 := (j 1).isLt
  have hj2 : (j 2).val < 256 := (j 2).isLt
  congr 1
  · exact Fin.ext (by show win1_4.index t (0 : Fin 3) = win1_4.index t (0 : Fin 3) * 1 + 1 * (j 0).val; have : (j 0).val < 1 := (j 0).isLt; omega)
  · exact Fin.ext (by show win1_4.index t (1 : Fin 3) * 2048 + (j 1).val = win1_4.index t (1 : Fin 3) * 2048 + 1 * (j 1).val; omega)
  · exact Fin.ext (by show (j 2).val = win1_4.index t (2 : Fin 3) * 256 + 1 * (j 2).val; omega)

/-- An index of the message array lies in a grid point's block iff each coordinate lies in the block's range on its axis. -/
theorem mem_blk1 (t : Fin cfg1.N) (i : S3x131072x256.Idx) :
    i ∈ ((cfg1.win 4).blk t).view.set ↔ ∀ a : Fin 3, win1_4.index t a * S1x2048x256.size a ≤ (i a).val ∧ (i a).val < win1_4.index t a * S1x2048x256.size a + S1x2048x256.size a := by
  show i ∈ ((View.whole main_v11).slice (win1_4.rect t)).set ↔ _
  rw [View.set_slice_whole, Rect.mem_set_unit]
  exact Iff.rfl

/-- Every (edge type, row block) pair is some grid point's. -/
theorem idx_onto1 : ∀ (q0 : Fin 3) (q1 : Fin 64), ∃ t : Fin cfg1.N, win1_4.index t = ![q0.val, q1.val, 0] :=
  (by decide +kernel : ∀ (q0 : Fin 3) (q1 : Fin 64), ∃ t : Fin grid1.N, win1_4.index t = ![q0.val, q1.val, 0])

/-- The blocks tile the message array: edge `e` of type `T` is in the block of the point at (`T`, `e / 2048`). -/
theorem cover1 (i : S3x131072x256.Idx) : ∃ t : Fin cfg1.N, (cfg1.win 4).flush t = true ∧ i ∈ ((cfg1.win 4).blk t).view.set := by
  have hi0 : (i 0).val < 3 := (i 0).isLt
  have hi1 : (i 1).val < 131072 := (i 1).isLt
  have hi2 : (i 2).val < 256 := (i 2).isLt
  obtain ⟨t, ht⟩ := idx_onto1 ⟨(i 0).val, hi0⟩ ⟨(i 1).val / 2048, by omega⟩
  have q0 : win1_4.index t (0 : Fin 3) = (i 0).val := congrFun ht 0
  have q1 : win1_4.index t (1 : Fin 3) = (i 1).val / 2048 := congrFun ht 1
  have q2 : win1_4.index t (2 : Fin 3) = 0 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2048 ≤ (i 1).val ∧ (i 1).val < win1_4.index t (1 : Fin 3) * 2048 + 2048; omega
  | ⟨2, _⟩ => show win1_4.index t (2 : Fin 3) * 256 ≤ (i 2).val ∧ (i 2).val < win1_4.index t (2 : Fin 3) * 256 + 256; omega

/-- After the second region its output array holds the edge messages, as one function of the arrays the region found. -/
theorem region1_value (c : Dev nD) :
    (dat1 V c).arrAt 4 cfg1.N = msgsOf (V c main_arg2) (V c main_v8) (V c main_v9) (V c main_v10) :=
  (dat1 V c).arrAt_eq_of_cover 4 _ (fun t _ => flushed1_eq V c t) cover1

end Cert.KernelIdeal.Hand1

end
-- ==== Proof.KRun.lean ====
/- The two-region run of @main, read buffer by buffer, at any float model `F`: what each window array of the two
   regions holds when its region is entered (`V1_*`, `V3_*`), what the result buffer holds at the last boundary
   (`W5_main_v22`), and the run's statement with the result buffer named (`run_named`). The host stretches between
   the regions are wrapped in two definitions, `gatherIdx` and `scatterTail`. No arithmetic: every equation here is
   the fold of the host operations over the launch memory, each region's arrays at what its write-backs leave. -/
import proofs.«119459_j52905407152679_1_alg».proof.Proof.Gen.KernelIdeal.Frame
import Idealize.ShloMosaic.Lib.StableHlo.Run

noncomputable section

namespace Cert.KernelIdeal.HandRun

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The gather's start indices: a negative index counts from the end of the 100000 rows, and the result gets a
    trailing unit axis. -/
def gatherIdx (idx : (⟨S3x131072, .i32⟩ : BufTy).Contents (Elt F)) : (⟨S3x131072x1, .i32⟩ : BufTy).Contents (Elt F) :=
  broadcastInDim S3x131072x1 ![0, 1] bcast_S3x131072_S3x131072x1_0_1
    (select (cmpi .slt idx (broadcastInDim S3x131072 ![] bcast_S_S3x131072 (constantI S_ 32 0#32)))
      (addi idx (broadcastInDim S3x131072 ![] bcast_S_S3x131072 (constantI S_ 32 100000#32))) idx)

/-- The host tail: the messages, flattened to 393216 rows, added into a zero array of 100000 rows at the normalised
    flattened indices (a negative index counts from the end), then split into two halves of 50000 rows. -/
def scatterTail (idx : (⟨S3x131072, .i32⟩ : BufTy).Contents (Elt F)) (msgs : (⟨S3x131072x256, .f32⟩ : BufTy).Contents (Elt F)) :
    (⟨S2x50000x256, .f32⟩ : BufTy).Contents (Elt F) :=
  shapeCast _ (Host.scatterAdd scatter_S100000x256_S393216x1_S393216x256_1_0_0_1
    (broadcastInDim S100000x256 ![] bcast_S_S100000x256 (constant (F := F) S_ .f32 0x00000000#32))
    (broadcastInDim S393216x1 ![0] bcast_S393216_S393216x1_0
      (select (cmpi .slt (shapeCast _ idx shapeCasts_S3x131072_S393216) (broadcastInDim S393216 ![] bcast_S_S393216 (constantI S_ 32 0#32)))
        (addi (shapeCast _ idx shapeCasts_S3x131072_S393216) (broadcastInDim S393216 ![] bcast_S_S393216 (constantI S_ 32 100000#32)))
        (shapeCast _ idx shapeCasts_S3x131072_S393216)))
    (shapeCast _ msgs shapeCasts_S3x131072x256_S393216x256)) shapeCasts_S100000x256_S2x50000x256

/-- Region 0's first window array at entry: the launch contents of argument 0, reshaped. -/
theorem V1_main_v0 (c : Dev nD) :
    V1 m ρ c main_v0 = shapeCast _ (m ((c.tc : Thread nD τ).loc main_arg0)) shapeCasts_S2x50000x256_S100000x256 := by
  show StableHlo.after hostOps0 (W0 m ρ c) (Proc.devRef .tc main_v0) = _
  after_results
  rfl

/-- Region 0's second window array at entry: argument 3 as launched (the reshape writes another buffer). -/
theorem V1_main_arg3 (c : Dev nD) : V1 m ρ c main_arg3 = m ((c.tc : Thread nD τ).loc main_arg3) := by
  show StableHlo.after hostOps0 (W0 m ρ c) (Proc.devRef .tc main_arg3) = _
  after_results

/-- A buffer that is no array of region 0 and is not the first reshape's result holds, when region 0 is left, what it
    held at launch: the region leaves it as entered, and the one operation before the region writes another buffer. -/
theorem W2_launch (c : Dev nD) (b : Ref sig .tc) (hb : ∀ w, Pipeline.arrRef spec0 w ≠ b) (h0 : b ≠ main_v0) :
    W2 m ρ c (Proc.devRef .tc b) = m ((c.tc : Thread nD τ).loc b) := by
  rw [W2_of_ne m ρ c b hb]
  show StableHlo.after hostOps0 (W0 m ρ c) (Proc.devRef .tc b) = _
  simp only [after_cons, after_nil]
  rw [reshape_result_ne _ _ _ _ _ _ _ h0]

/-- Region 1's first window array at entry: argument 2 as launched. -/
theorem V3_main_arg2 (c : Dev nD) : V3 m ρ c main_arg2 = m ((c.tc : Thread nD τ).loc main_arg2) := by
  show StableHlo.after hostOps1 (W2 m ρ c) (Proc.devRef .tc main_arg2) = _
  after_results
  exact W2_launch m ρ c main_arg2 (by decide) (by decide)

/-- Region 1's second window array at entry: the rows of region 0's output gathered at the normalised indices. -/
theorem V3_main_v8 (c : Dev nD) :
    V3 m ρ c main_v8 = Host.gather gather_S100000x256_S3x131072x1_S3x131072x256_2_0_n_n_0_2_1256
      ((dat0 (V1 m ρ) c).arrAt 2 cfg0.N) (gatherIdx (m ((c.tc : Thread nD τ).loc main_arg1))) := by
  show StableHlo.after hostOps1 (W2 m ρ c) (Proc.devRef .tc main_v8) = _
  after_results
  rw [W2_launch m ρ c main_arg1 (by decide) (by decide),
    show W2 m ρ c (Proc.devRef .tc main_v1) = _ from W2_arr m ρ c 2]
  rfl

/-- Region 1's third window array at entry: arguments 4 and 5 side by side along the last axis. -/
theorem V3_main_v9 (c : Dev nD) :
    V3 m ρ c main_v9 = concatenate S3x128x512 2 [⟨S3x128x256, m ((c.tc : Thread nD τ).loc main_arg4)⟩,
      ⟨S3x128x256, m ((c.tc : Thread nD τ).loc main_arg5)⟩] concatenates_S3x128x256_S3x128x256_S3x128x512_d2 := by
  show StableHlo.after hostOps1 (W2 m ρ c) (Proc.devRef .tc main_v9) = _
  after_results
  rw [W2_launch m ρ c main_arg4 (by decide) (by decide), W2_launch m ρ c main_arg5 (by decide) (by decide)]

/-- Region 1's fourth window array at entry: argument 6 with a unit middle axis. -/
theorem V3_main_v10 (c : Dev nD) :
    V3 m ρ c main_v10 = broadcastInDim S3x1x256 ![0, 2] bcast_S3x256_S3x1x256_0_2 (m ((c.tc : Thread nD τ).loc main_arg6)) := by
  show StableHlo.after hostOps1 (W2 m ρ c) (Proc.devRef .tc main_v10) = _
  after_results
  rw [W2_launch m ρ c main_arg6 (by decide) (by decide)]

/-- The index argument holds, when region 1 is left, what it held at launch: it is no array of either region and no
    host operation before region 1 writes it. -/
theorem W4_main_arg1 (c : Dev nD) : W4 m ρ c (Proc.devRef .tc main_arg1) = m ((c.tc : Thread nD τ).loc main_arg1) := by
  rw [W4_of_ne m ρ c main_arg1 (by decide)]
  show StableHlo.after hostOps1 (W2 m ρ c) (Proc.devRef .tc main_arg1) = _
  after_results
  exact W2_launch m ρ c main_arg1 (by decide) (by decide)

/-- The result buffer at the end of the run: the host tail applied to the launched indices and to what region 1's
    write-backs leave in its output array. -/
theorem W5_main_v22 (c : Dev nD) :
    W5 m ρ c (Proc.devRef .tc main_v22)
      = scatterTail (m ((c.tc : Thread nD τ).loc main_arg1)) ((dat1 (V3 m ρ) c).arrAt 4 cfg1.N) := by
  show StableHlo.after hostOps2 (W4 m ρ c) (Proc.devRef .tc main_v22) = _
  after_results
  rw [W4_main_arg1 m ρ c, show W4 m ρ c (Proc.devRef .tc main_v11) = _ from W4_arr m ρ c 4]
  rfl

section Run

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- The run of @main, with the result named: at the compiled mesh, from any memory with zero counters, every weakly
    fair execution on the TensorCores terminates, nothing faulting, and in every final state the result buffer holds
    the last boundary's contents `W5` at it, and every argument array is as launched. The last thread state gives
    every unscoped buffer at `W5`; the result buffer is one of them. -/
theorem run_named : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Run

end Cert.KernelIdeal.HandRun

end
-- ==== Proof.KernelValue.lean ====
/-
  The value of the whole kernel program over the extended reals, as one function of its seven argument arrays:
  the node features, reshaped to 100000 rows, times the gate matrix; the rows of that product gathered at the edge
  indices; per edge type the product of the edge features with the gate and value weights laid side by side, the
  value half plus its bias gated by the logistic function of the gathered row plus the gate half; and those messages
  added into a zero array at the edge indices. `kernel_run` states the run with the result at that function.
-/
import proofs.«119459_j52905407152679_1_alg».proof.Proof.Region0
import proofs.«119459_j52905407152679_1_alg».proof.Proof.Region1
import proofs.«119459_j52905407152679_1_alg».proof.Proof.KRun

noncomputable section

namespace Cert.KernelIdeal.HandOut

open Cert.KernelIdeal Cert.KernelIdeal.Gen Idealize.ShloMosaic Idealize.ShloMosaic.TcCoe Idealize.SL.Sem

/-- The kernel program's result as a function of the argument arrays. -/
def kernelOut (x0 : (⟨S2x50000x256, .f32⟩ : BufTy).Contents (Elt Ideal)) (x1 : (⟨S3x131072, .i32⟩ : BufTy).Contents (Elt Ideal))
    (x2 : (⟨S3x131072x128, .f32⟩ : BufTy).Contents (Elt Ideal)) (x3 : (⟨S256x256, .f32⟩ : BufTy).Contents (Elt Ideal))
    (x4 x5 : (⟨S3x128x256, .f32⟩ : BufTy).Contents (Elt Ideal)) (x6 : (⟨S3x256, .f32⟩ : BufTy).Contents (Elt Ideal)) :
    (⟨S2x50000x256, .f32⟩ : BufTy).Contents (Elt Ideal) :=
  HandRun.scatterTail (F := Ideal) x1
    (Hand1.msgsOf x2
      (Host.gather gather_S100000x256_S3x131072x1_S3x131072x256_2_0_n_n_0_2_1256
        (Hand0.prod0 (shapeCast S100000x256 x0 shapeCasts_S2x50000x256_S100000x256) x3) (HandRun.gatherIdx (F := Ideal) x1))
      (concatenate S3x128x512 2 [⟨S3x128x256, x4⟩, ⟨S3x128x256, x5⟩] concatenates_S3x128x256_S3x128x256_S3x128x512_d2)
      (broadcastInDim S3x1x256 ![0, 2] bcast_S3x256_S3x1x256_0_2 x6))

variable (m : (ℓ : Loc nD τ sig) → Buf (Elt Ideal) ℓ) (ρ : Dev nD → PrngReg)

/-- What the second region leaves in its output array, in terms of the launched arguments: the arrays it finds are
    argument 2, the gathered rows of the first region's product, the concatenated weights and the bias with a unit
    axis; the first region's product is that of the reshaped argument 0 with argument 3. -/
theorem msgs_value (c : Dev nD) :
    (dat1 (V3 m ρ) c).arrAt 4 cfg1.N
      = Hand1.msgsOf (m ((c.tc : Thread nD τ).loc main_arg2))
          (Host.gather gather_S100000x256_S3x131072x1_S3x131072x256_2_0_n_n_0_2_1256
            (Hand0.prod0 (shapeCast S100000x256 (m ((c.tc : Thread nD τ).loc main_arg0)) shapeCasts_S2x50000x256_S100000x256) (m ((c.tc : Thread nD τ).loc main_arg3)))
            (HandRun.gatherIdx (F := Ideal) (m ((c.tc : Thread nD τ).loc main_arg1))))
          (concatenate S3x128x512 2 [⟨S3x128x256, m ((c.tc : Thread nD τ).loc main_arg4)⟩, ⟨S3x128x256, m ((c.tc : Thread nD τ).loc main_arg5)⟩] concatenates_S3x128x256_S3x128x256_S3x128x512_d2)
          (broadcastInDim S3x1x256 ![0, 2] bcast_S3x256_S3x1x256_0_2 (m ((c.tc : Thread nD τ).loc main_arg6))) := by
  rw [Hand1.region1_value (V3 m ρ) c, HandRun.V3_main_arg2 m ρ c, HandRun.V3_main_v8 m ρ c, HandRun.V3_main_v9 m ρ c,
    HandRun.V3_main_v10 m ρ c, Hand0.region0_value (V1 m ρ) c, HandRun.V1_main_v0 m ρ c, HandRun.V1_main_arg3 m ρ c]

/-- The run of the kernel program: the result buffer ends at `kernelOut` of the launched arguments, which end unchanged. -/
theorem kernel_run : θ_run defs (onTc (τ := τ) (main (F := Ideal))) ⟨m, fun _ => 0, ρ⟩ (fun r => ∀ c : Dev nD,
      r.2.mem ((c.tc : Thread nD τ).loc main_v22)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans ((HandRun.W5_main_v22 m ρ c).trans
      (congrArg (HandRun.scatterTail (F := Ideal) (m ((c.tc : Thread nD τ).loc main_arg1))) (msgs_value m ρ c))), (h c).2⟩)
    (HandRun.run_named (F := Ideal) m ρ)

end Cert.KernelIdeal.HandOut

end
-- ==== Proof.RefBridge.lean ====
/-
  The reference's value is the kernel program's value, over the extended reals, as functions of the seven arguments.

  Both programs gather rows of the same matrix product (reshaped features times the gate matrix) at the same
  normalised edge indices and finish with the same scatter-add, so three facts join them: the first region's
  product is the reference's first product (`prod0_eq`); the reference's messages are the kernel's (`msgs_eq`:
  the gate and value projections are the two column halves of the product with the concatenated weights, and
  `1 / (1 + exp (-z))` is the logistic function); and the two tails are one function (`tail_eq`). Every step is an
  identity of sums term by term, so the finiteness of the inputs is never used.
-/
import proofs.«119459_j52905407152679_1_alg».proof.Proof.Gen.ReferenceIdeal.Read
import proofs.«119459_j52905407152679_1_alg».proof.Proof.KernelValue
import Idealize.ShloMosaic.Lib.Pipeline.Value
import Idealize.ShloMosaic.Lib.ValueIdx
import Idealize.ShloMosaic.Lib.ValueLayout
import Idealize.ShloMosaic.PureOps.Ideal.Laws

noncomputable section

namespace Cert.RefBridge

open Cert.ReferenceIdeal Cert.ReferenceIdeal.Gen Cert.ReferenceIdeal.Read Idealize.ShloMosaic Idealize.ShloMosaic.TcCoe Idealize.SL.Sem
open Idealize.ShloMosaic.ValueIdx

/-- The word of `1.0` denotes the real one. -/
theorem ofBits_one : Ideal.ofBits .f32 0x3F800000#32 = 1 := by
  simp [Ideal.ofBits, Ideal.ieee, -EReal.coe_mul]; norm_num

/-- The first 256 columns of the concatenated weights are the gate weights. -/
theorem concat_left (x4 x5 : S3x128x256.Idx → EReal) (T : Fin 3) (k : Fin 128) (q : Fin 256) :
    concatenate Cert.KernelIdeal.S3x128x512 2 [⟨Cert.KernelIdeal.S3x128x256, x4⟩, ⟨Cert.KernelIdeal.S3x128x256, x5⟩]
      Cert.KernelIdeal.Facts₀.concatenates_S3x128x256_S3x128x256_S3x128x512_d2 (ix3 T k (⟨0 + q.val, by omega⟩ : Fin 512))
      = x4 (ix3 T k q) := by
  refine concatenate_pair_apply_left (t := Cert.KernelIdeal.S3x128x512) (s₁ := Cert.KernelIdeal.S3x128x256) (s₂ := Cert.KernelIdeal.S3x128x256)
    2 x4 x5 Cert.KernelIdeal.Facts₀.concatenates_S3x128x256_S3x128x256_S3x128x512_d2 (ix3 T k (⟨0 + q.val, by omega⟩ : Fin 512)) rfl (ix3 T k q) fun b => ?_
  match b with
  | ⟨0, _⟩ => rfl
  | ⟨1, _⟩ => rfl
  | ⟨2, _⟩ => show q.val = 0 + q.val; omega

/-- The last 256 columns of the concatenated weights are the value weights. -/
theorem concat_right (x4 x5 : S3x128x256.Idx → EReal) (T : Fin 3) (k : Fin 128) (q : Fin 256) :
    concatenate Cert.KernelIdeal.S3x128x512 2 [⟨Cert.KernelIdeal.S3x128x256, x4⟩, ⟨Cert.KernelIdeal.S3x128x256, x5⟩]
      Cert.KernelIdeal.Facts₀.concatenates_S3x128x256_S3x128x256_S3x128x512_d2 (ix3 T k (⟨256 + q.val, by omega⟩ : Fin 512))
      = x5 (ix3 T k q) := by
  refine concatenate_pair_apply_right (t := Cert.KernelIdeal.S3x128x512) (s₁ := Cert.KernelIdeal.S3x128x256) (s₂ := Cert.KernelIdeal.S3x128x256)
    2 x4 x5 Cert.KernelIdeal.Facts₀.concatenates_S3x128x256_S3x128x256_S3x128x512_d2 (ix3 T k (⟨256 + q.val, by omega⟩ : Fin 512)) rfl rfl (ix3 T k q) (fun b hb => ?_) ?_
  · match b with
    | ⟨0, _⟩ => rfl
    | ⟨1, _⟩ => rfl
    | ⟨2, _⟩ => exact absurd rfl hb
  · show q.val + 256 = 256 + q.val; omega

/-- The three index maps of the reference's two batched products and of its broadcast bias, at explicit coordinates. -/
theorem lidx3 (T : Fin 3) (e : Fin 131072) (q : Fin 256) (k : Fin 128) : lidx_main_v3 (ix3 T e q) k = ix3 T e k :=
  funext fun a => by match a with | ⟨0, _⟩ => rfl | ⟨1, _⟩ => rfl | ⟨2, _⟩ => rfl
theorem ridx3 (T : Fin 3) (e : Fin 131072) (q : Fin 256) (k : Fin 128) : ridx_main_v3 (ix3 T e q) k = ix3 T k q :=
  funext fun a => by match a with | ⟨0, _⟩ => rfl | ⟨1, _⟩ => rfl | ⟨2, _⟩ => rfl
theorem lidx2 (T : Fin 3) (e : Fin 131072) (q : Fin 256) (k : Fin 128) : lidx_main_v2 (ix3 T e q) k = ix3 T e k :=
  funext fun a => by match a with | ⟨0, _⟩ => rfl | ⟨1, _⟩ => rfl | ⟨2, _⟩ => rfl
theorem ridx2 (T : Fin 3) (e : Fin 131072) (q : Fin 256) (k : Fin 128) : ridx_main_v2 (ix3 T e q) k = ix3 T k q :=
  funext fun a => by match a with | ⟨0, _⟩ => rfl | ⟨1, _⟩ => rfl | ⟨2, _⟩ => rfl
theorem idx5 (T : Fin 3) (e : Fin 131072) (q : Fin 256) : idx_main_v5 (ix3 T e q) = ix3 T (0 : Fin 1) q :=
  funext fun a => by match a with | ⟨0, _⟩ => rfl | ⟨1, _⟩ => rfl | ⟨2, _⟩ => rfl

/-- The reference's messages are the kernel's: entry by entry both are (value projection + bias) times the logistic
    function of (gathered entry + gate projection); the reference writes the logistic function as
    `1 / (1 + exp (-z))` and takes each projection from its own product, the kernel reads both projections out of the
    product with the concatenated weights. No finiteness is needed: the two sides are the same sums, term by term. -/
theorem msgs_eq (x2 : S3x131072x128.Idx → EReal) (x4 x5 : S3x128x256.Idx → EReal) (x6 : S3x256.Idx → EReal)
    (G : S3x131072x256.Idx → EReal) :
    mulf (F := Ideal) (φ := .f32) (addf (val_main_v3 (F := Ideal) x2 x5) (val_main_v5 (F := Ideal) x6))
      (Host.divf (val_main_v19 (F := Ideal)) (addf (val_main_v17 (F := Ideal)) (Host.exp (Host.negf (addf G (val_main_v2 (F := Ideal) x2 x4))))))
    = Cert.KernelIdeal.Hand1.msgsOf x2 G
        (concatenate Cert.KernelIdeal.S3x128x512 2 [⟨Cert.KernelIdeal.S3x128x256, x4⟩, ⟨Cert.KernelIdeal.S3x128x256, x5⟩]
          Cert.KernelIdeal.Facts₀.concatenates_S3x128x256_S3x128x256_S3x128x512_d2)
        (val_main_v4 (F := Ideal) x6) := by
  funext i
  obtain ⟨T, e, q, rfl⟩ : ∃ (T : Fin 3) (e : Fin 131072) (q : Fin 256), i = ix3 T e q := ⟨i 0, i 1, i 2, eq_ix3 i⟩
  show (val_main_v3 (F := Ideal) x2 x5 (ix3 T e q) + val_main_v5 (F := Ideal) x6 (ix3 T e q))
      * Ideal.div (val_main_v19 (F := Ideal) (ix3 T e q)) (val_main_v17 (F := Ideal) (ix3 T e q) + Ideal.exp (-(G (ix3 T e q) + val_main_v2 (F := Ideal) x2 x4 (ix3 T e q))))
    = Cert.KernelIdeal.Hand1.msgsAt x2 G _ (val_main_v4 (F := Ideal) x6) T e q
  rw [val_main_v3_apply, val_main_v2_apply, val_main_v5_apply, val_main_v19_apply, val_main_v17_apply, val_main_cst_1_apply, val_main_cst_apply]
  simp only [lidx3, ridx3, lidx2, ridx2, idx5, Ideal.ofBits_def, ofBits_one]
  unfold Cert.KernelIdeal.Hand1.msgsAt
  simp only [concat_left, concat_right]
  rfl

/-- The first region's product is the reference's first matrix product: entry by entry the same sum over the 256
    contracted entries of a row of the reshaped features and a column of the gate matrix. -/
theorem prod0_eq (x0 : S2x50000x256.Idx → EReal) (x3 : S256x256.Idx → EReal) :
    Cert.KernelIdeal.Hand0.prod0 (shapeCast Cert.KernelIdeal.S100000x256 x0 Cert.KernelIdeal.Facts₀.shapeCasts_S2x50000x256_S100000x256) x3
      = val_main_v1 (F := Ideal) x0 x3 := by
  funext i
  rw [val_main_v1_apply]
  rfl

/-- So the gathered rows agree: one gather, of equal arrays, at the same normalised indices. -/
theorem gather_eq (x0 : S2x50000x256.Idx → EReal) (x1 : (⟨S3x131072, .i32⟩ : BufTy).Contents (Elt Ideal)) (x3 : S256x256.Idx → EReal) :
    Host.gather Cert.KernelIdeal.gather_S100000x256_S3x131072x1_S3x131072x256_2_0_n_n_0_2_1256
        (Cert.KernelIdeal.Hand0.prod0 (shapeCast Cert.KernelIdeal.S100000x256 x0 Cert.KernelIdeal.Facts₀.shapeCasts_S2x50000x256_S100000x256) x3)
        (Cert.KernelIdeal.HandRun.gatherIdx (F := Ideal) x1)
      = val_main_v13 (F := Ideal) x0 x1 x3 := by
  rw [prod0_eq]
  rfl

/-- The reference's last operations are the kernel program's host tail, applied to the reference's messages. -/
theorem tail_eq (x0 : S2x50000x256.Idx → EReal) (x1 : (⟨S3x131072, .i32⟩ : BufTy).Contents (Elt Ideal)) (x2 : S3x131072x128.Idx → EReal)
    (x3 : S256x256.Idx → EReal) (x4 x5 : S3x128x256.Idx → EReal) (x6 : S3x256.Idx → EReal) :
    val_main_v32 (F := Ideal) x0 x1 x2 x3 x4 x5 x6
      = Cert.KernelIdeal.HandRun.scatterTail (F := Ideal) x1 (val_main_v21 (F := Ideal) x0 x1 x2 x3 x4 x5 x6) := rfl

/-- The reference's result is the kernel program's, as functions of the seven argument arrays. -/
theorem ref_eq_kernel (x0 : S2x50000x256.Idx → EReal) (x1 : (⟨S3x131072, .i32⟩ : BufTy).Contents (Elt Ideal)) (x2 : S3x131072x128.Idx → EReal)
    (x3 : S256x256.Idx → EReal) (x4 x5 : S3x128x256.Idx → EReal) (x6 : S3x256.Idx → EReal) :
    val_main_v32 (F := Ideal) x0 x1 x2 x3 x4 x5 x6 = Cert.KernelIdeal.HandOut.kernelOut x0 x1 x2 x3 x4 x5 x6 := by
  rw [tail_eq]
  unfold Cert.KernelIdeal.HandOut.kernelOut
  refine congrArg (Cert.KernelIdeal.HandRun.scatterTail (F := Ideal) x1) ?_
  rw [gather_eq]
  exact msgs_eq x2 x4 x5 x6 (val_main_v13 (F := Ideal) x0 x1 x3)

end Cert.RefBridge

end
-- ==== Proof.lean ====
/-
  The certificate of a gated message-passing layer against its jnp reference, over the extended reals.

  The kernel program computes the node gate projection (features reshaped to 100000 rows, times the gate matrix) in a
  first kernel region, 5000 rows per grid point; gathers its rows at the edge indices on the host; and in a second
  region, per edge type and block of 2048 edges, multiplies the edge features by the gate and value weights laid
  side by side, splits the product into its two column halves, and stores (value + bias) · logistic(gathered + gate);
  the host then adds those messages into a zero array at the edge indices. The reference computes the same
  quantities with one product per weight matrix and the logistic function written `1 / (1 + exp (-z))`.

  The modules: Proof/Region0.lean and Proof/Region1.lean read what each region leaves in its output array as one
  function of the arrays it finds; Proof/KRun.lean reads the host operations between and after the regions and states
  the run with the result named; Proof/KernelValue.lean composes them into the kernel program's value;
  Proof/RefBridge.lean shows the reference's value (its generated run, read one operation at a time) is the same
  function. Here the five claims are assembled: the two kernel frames are the generated ones, the reference's frame
  is its generated run with the result dropped, the idealization rewrote nothing, and the two values agree.
-/
import proofs.«119459_j52905407152679_1_alg».proof.Defs
import proofs.«119459_j52905407152679_1_alg».proof.Proof.Gen.Kernel
import proofs.«119459_j52905407152679_1_alg».proof.Proof.Gen.Kernel.Skeleton
import proofs.«119459_j52905407152679_1_alg».proof.Proof.Gen.Kernel.Launch
import proofs.«119459_j52905407152679_1_alg».proof.Proof.Gen.Kernel.Points
import proofs.«119459_j52905407152679_1_alg».proof.Proof.Gen.Kernel.Frame
import proofs.«119459_j52905407152679_1_alg».proof.Proof.Gen.KernelIdeal
import proofs.«119459_j52905407152679_1_alg».proof.Proof.Gen.KernelIdeal.Skeleton
import proofs.«119459_j52905407152679_1_alg».proof.Proof.Gen.KernelIdeal.Launch
import proofs.«119459_j52905407152679_1_alg».proof.Proof.Gen.KernelIdeal.Points
import proofs.«119459_j52905407152679_1_alg».proof.Proof.Gen.KernelIdeal.Frame
import proofs.«119459_j52905407152679_1_alg».proof.Proof.Gen.ReferenceIdeal
import proofs.«119459_j52905407152679_1_alg».proof.Proof.Gen.Pre_finite_inputs
import proofs.«119459_j52905407152679_1_alg».proof.Proof.Gen.ReferenceIdeal.Run
import proofs.«119459_j52905407152679_1_alg».proof.Proof.Gen.ReferenceIdeal.Read
import proofs.«119459_j52905407152679_1_alg».proof.Proof.KernelValue
import proofs.«119459_j52905407152679_1_alg».proof.Proof.RefBridge
import Idealize.ShloMosaic.Adequacy
import Idealize.ShloMosaic.Init

noncomputable section

namespace Cert.Proof

open Idealize.ShloMosaic Idealize.SL.Sem

/-- The kernel program as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs run, and the result arrays are equal entry by entry:
    the kernel program's is `kernelOut` of the arguments, the reference's its composed term, and the two are one function. -/
theorem algebraic : Cert.algebraic_KernelIdeal_ReferenceIdeal := by
  intro m ρ m' ρ' _ hagree
  refine ⟨fun c => Cert.KernelIdeal.HandOut.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.HandOut.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v32_eq, e0, e1, e2, e3, e4, e5, e6]
  exact Cert.RefBridge.ref_eq_kernel _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
